-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 59
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x64, .f32⟩
  | .hbm, ⟨58, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.LibBlockRows.lean ====
/-
  Rows of a kernel block, on the extended reals.

  A kernel body that works on a block of R rows often (a) scales a sum of two [R, K] blocks by a per-row factor held
  as a column [R, 1] and spread over the lanes, and (b) multiplies an [R, K] block by a [K, N] matrix, accumulating
  into zeros, and adds a bias held as a one-row matrix [1, N] spread over the rows (the bias was reshaped to one row
  on the host, and the body loads that row). In both, row r of the result depends on row r of the row operands alone:
      (a)  k ↦ (a r k + f r k) · s r            (b)  n ↦ (∑ k, a r k · w k n) + b 0 n.
  The lemmas below read those rows, at any extents, for the plain dimension numbers (contract the left operand's
  last axis with the right operand's first, no batch axis). They use `row`, `mat`, `affine` and
  `plain_contr_sum` of LibDenseRows.lean.
-/
import Idealize.ShloMosaic.Lib.ValueLayout
import Idealize.ShloMosaic.Lib.ValueIdx
import Idealize.ShloMosaic.Lib.Pipeline.Value
import Idealize.ShloMosaic.PureOps.Ideal.Laws
import proofs.«147912_j39702677684849_1_alg».proof.Proof.LibDenseRows

noncomputable section

namespace Cert.LibBlockRows

open Idealize.ShloMosaic Idealize.ShloMosaic.ValueIdx Cert.DenseRows

/-- A column [R, 1] spread over K lanes reads, at (r, k), the column at r. -/
theorem column_spread {α : Type} {R K : ℕ} (s : (⟨2, ![R, 1]⟩ : Shape).Idx → α)
    (hb : (⟨2, ![R, 1]⟩ : Shape).Broadcasts ⟨2, ![R, K]⟩) (r : Fin R) (k : Fin K) :
    broadcastTo ⟨2, ![R, K]⟩ s hb (ix2 r k) = s (ix2 r (0 : Fin 1)) := by
  refine broadcastTo_apply s hb (ix2 r k) (ix2 r (0 : Fin 1)) fun ax => ?_
  match ax with
  | ⟨0, _⟩ =>
    show r.val = if R = 1 then 0 else r.val
    split
    · have := r.isLt; omega
    · rfl
  | ⟨1, _⟩ => rfl

/-- A one-row matrix [1, N] spread over R rows reads, at (r, n), the row at n. -/
theorem row_spread {α : Type} {R N : ℕ} (b : (⟨2, ![1, N]⟩ : Shape).Idx → α)
    (hb : (⟨2, ![1, N]⟩ : Shape).Broadcasts ⟨2, ![R, N]⟩) (r : Fin R) (n : Fin N) :
    broadcastTo ⟨2, ![R, N]⟩ b hb (ix2 r n) = b (ix2 (0 : Fin 1) n) := by
  refine broadcastTo_apply b hb (ix2 r n) (ix2 (0 : Fin 1) n) fun ax => ?_
  match ax with
  | ⟨0, _⟩ => rfl
  | ⟨1, _⟩ =>
    show n.val = if N = 1 then 0 else n.val
    split
    · have := n.isLt; omega
    · rfl

/-- Row `r` of `(a + f) · s`, the column `s` spread over the lanes: every entry of the summed row times the one
    factor `s r`. -/
theorem row_scaled_sum {R K : ℕ} (a f : FVec Ideal ⟨2, ![R, K]⟩ .f32) (s : FVec Ideal ⟨2, ![R, 1]⟩ .f32)
    (hb : (⟨2, ![R, 1]⟩ : Shape).Broadcasts ⟨2, ![R, K]⟩) (r : Fin R) :
    row (mulf (addf a f) (broadcastTo ⟨2, ![R, K]⟩ s hb)) r
      = fun k => (row a r k + row f r k) * s (ix2 r (0 : Fin 1)) := by
  funext k
  show (a (ix2 r k) + f (ix2 r k)) * broadcastTo ⟨2, ![R, K]⟩ s hb (ix2 r k) = _
  rw [column_spread]
  rfl

/-- Row `r` of a matrix product accumulated into the zero splat, plus a one-row bias spread over the rows, is the
    dense layer `h ↦ h · w + b` of row `r` of the left operand. -/
theorem row_matmul_rowbias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) :
    row (addf (matmul d prec a w (constant (F := Ideal) ⟨2, ![R, N]⟩ .f32 0x00000000#32))
          (broadcastTo ⟨2, ![R, N]⟩ b hb)) r
      = affine (row a r) (mat w) (row b (0 : Fin 1)) := by
  subst hd
  funext n
  show FloatOps.matmul (DotDims.plain R K N) prec a w (constant (F := Ideal) ⟨2, ![R, N]⟩ .f32 0x00000000#32) (ix2 r n)
      + broadcastTo ⟨2, ![R, N]⟩ b hb (ix2 r n) = _
  rw [Ideal.matmul_constant_zero_apply, plain_contr_sum, row_spread]
  rfl

end Cert.LibBlockRows

end
-- ==== Proof.LibLayerSum.lean ====
/-
  The sum of two dense layers, read one row at a time on the extended reals.

  For `[R, K]` arrays `a` and `x`, `[K, N]` matrices `u` and `w` and a bias `b` of `N` entries, the array
  `(a · u + b) + x · w` has as its row `r`
      n ↦ ((∑ k, a r k * u k n) + b n) + ∑ k, x r k * w k n,
  a function of row `r` of `a` and row `r` of `x` alone (`layerSum`). The lemmas here read that row off the two
  spellings a program gives the array — two matrix products accumulated into zero splats with the bias held as a
  one-row matrix `[1, N]` spread over the rows, and two host `dot_general`s with the bias `[N]` broadcast in
  dimension twice — for the plain dimension numbers (contract the left operand's last axis with the right
  operand's first, no batch axis), at any extents and any float formats of the operands. Since both spellings give
  the same function of the row, the array computed block of rows by block of rows and the array computed whole
  agree row by row; `wholeOf` is that array as one function of its index. No finiteness is used: only the
  grouping `(· + b) + ·`, which the two spellings share.
  Built on `row`, `mat`, `vec`, `affine`, `plain_contr_sum` of LibDenseRows.lean and `row_matmul_rowbias` of
  LibBlockRows.lean.
-/
import Idealize.ShloMosaic.Lib.ValueLayout
import Idealize.ShloMosaic.Lib.ValueIdx
import Idealize.ShloMosaic.PureOps.Ideal.Laws
import proofs.«147912_j39702677684849_1_alg».proof.Proof.LibDenseRows
import proofs.«147912_j39702677684849_1_alg».proof.Proof.LibBlockRows

noncomputable section

namespace Cert.LibLayerSum

open Idealize.ShloMosaic Idealize.ShloMosaic.ValueIdx Cert.DenseRows Cert.LibBlockRows

/-- One row times a matrix: `h · W`. -/
def linear {K N : ℕ} (h : Fin K → EReal) (W : Fin K → Fin N → EReal) : Fin N → EReal :=
  fun n => ∑ k : Fin K, h k * W k n

/-- A biased dense layer of the row `h` plus an unbiased one of the row `g`: `(h · U + b) + g · W`. -/
def layerSum {K N : ℕ} (h g : Fin K → EReal) (U W : Fin K → Fin N → EReal) (b : Fin N → EReal) : Fin N → EReal :=
  fun n => affine h U b n + linear g W n

/-- The array whose row `r` is `layerSum` of row `r` of `A` and row `r` of `X`. -/
def wholeOf {R K N : ℕ} (A X : (⟨2, ![R, K]⟩ : Shape).Idx → EReal) (U W : (⟨2, ![K, N]⟩ : Shape).Idx → EReal)
    (b : Fin N → EReal) : (⟨2, ![R, N]⟩ : Shape).Idx → EReal :=
  fun i => layerSum (row A (i 0)) (row X (i 0)) (mat U) (mat W) b (i 1)

theorem wholeOf_ix2 {R K N : ℕ} (A X : (⟨2, ![R, K]⟩ : Shape).Idx → EReal) (U W : (⟨2, ![K, N]⟩ : Shape).Idx → EReal)
    (b : Fin N → EReal) (r : Fin R) (n : Fin N) :
    wholeOf A X U W b (ix2 r n) = layerSum (row A r) (row X r) (mat U) (mat W) b n := rfl

/-- Row `r` of a matrix product accumulated into the zero splat. -/
theorem row_matmul {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (r : Fin R) :
    row (matmul d prec a w (constant (F := Ideal) ⟨2, ![R, N]⟩ .f32 0x00000000#32)) r = linear (row a r) (mat w) := by
  subst hd
  funext n
  show FloatOps.matmul (DotDims.plain R K N) prec a w (constant (F := Ideal) ⟨2, ![R, N]⟩ .f32 0x00000000#32) (ix2 r n) = _
  rw [Ideal.matmul_constant_zero_apply, plain_contr_sum]
  rfl

/-- Row `r` of a host `dot_general`. -/
theorem row_dotGeneral {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (r : Fin R) :
    row (Host.dotGeneral d prec a w : FVec Ideal ⟨2, ![R, N]⟩ .f32) r = linear (row a r) (mat w) := by
  subst hd
  funext n
  show FloatOps.dotGeneral (DotDims.plain R K N) prec .single a w (ix2 r n) = _
  rw [Ideal.dotGeneral_apply, plain_contr_sum]
  rfl

/-- THE BLOCK'S SPELLING: row `r` of `(a ·ₘ u + spread b) + x ·ₘ w`, the products accumulated into zero splats, the
    bias a one-row matrix spread over the rows. -/
theorem row_block {R K N : ℕ} {φ₁ φ₂ φ₃ φ₄ : FTy} (d : DotDims ⟨2, ![R, K]⟩ ⟨2, ![K, N]⟩ ⟨2, ![R, N]⟩)
    (hd : d = DotDims.plain R K N) (prec prec' : Option ContractPrecision)
    (a : FVec Ideal ⟨2, ![R, K]⟩ φ₁) (u : FVec Ideal ⟨2, ![K, N]⟩ φ₂)
    (x : FVec Ideal ⟨2, ![R, K]⟩ φ₃) (w : FVec Ideal ⟨2, ![K, N]⟩ φ₄) (b : FVec Ideal ⟨2, ![1, N]⟩ .f32)
    (hb : (⟨2, ![1, N]⟩ : Shape).Broadcasts ⟨2, ![R, N]⟩) (r : Fin R) :
    row (addf (addf (matmul d prec a u (constant (F := Ideal) ⟨2, ![R, N]⟩ .f32 0x00000000#32))
            (broadcastTo ⟨2, ![R, N]⟩ b hb))
          (matmul d prec' x w (constant (F := Ideal) ⟨2, ![R, N]⟩ .f32 0x00000000#32))) r
      = layerSum (row a r) (row x r) (mat u) (mat w) (row b (0 : Fin 1)) := by
  funext n
  show row (addf (matmul d prec a u (constant (F := Ideal) ⟨2, ![R, N]⟩ .f32 0x00000000#32))
          (broadcastTo ⟨2, ![R, N]⟩ b hb)) r n
        + row (matmul d prec' x w (constant (F := Ideal) ⟨2, ![R, N]⟩ .f32 0x00000000#32)) r n = _
  rw [row_matmul_rowbias d hd, row_matmul d hd]
  rfl

/-- THE HOST'S SPELLING: row `r` of `(dot_general a u + b broadcast twice) + dot_general x w`. -/
theorem row_host {R K N : ℕ} {φ₁ φ₂ φ₃ φ₄ : FTy} (d : DotDims ⟨2, ![R, K]⟩ ⟨2, ![K, N]⟩ ⟨2, ![R, N]⟩)
    (hd : d = DotDims.plain R K N) (prec prec' : Option ContractPrecision)
    (a : FVec Ideal ⟨2, ![R, K]⟩ φ₁) (u : FVec Ideal ⟨2, ![K, N]⟩ φ₂)
    (x : FVec Ideal ⟨2, ![R, K]⟩ φ₃) (w : FVec Ideal ⟨2, ![K, N]⟩ φ₄) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (addf (Host.dotGeneral d prec a u)
            (broadcastInDim ⟨2, ![R, N]⟩ ![0, 1] h2 (broadcastInDim ⟨2, ![1, N]⟩ ![1] h1 b)))
          (Host.dotGeneral d prec' x w : FVec Ideal ⟨2, ![R, N]⟩ .f32)) r
      = layerSum (row a r) (row x r) (mat u) (mat w) (vec b) := by
  funext n
  show row (addf (Host.dotGeneral d prec a u)
          (broadcastInDim ⟨2, ![R, N]⟩ ![0, 1] h2 (broadcastInDim ⟨2, ![1, N]⟩ ![1] h1 b))) r n
        + row (Host.dotGeneral d prec' x w : FVec Ideal ⟨2, ![R, N]⟩ .f32) r n = _
  rw [row_dotGeneral_bias d hd, row_dotGeneral d hd]
  rfl

/-- So the host's array is `wholeOf` of its operands, index by index. -/
theorem host_whole {R K N : ℕ} {φ₁ φ₂ φ₃ φ₄ : FTy} (d : DotDims ⟨2, ![R, K]⟩ ⟨2, ![K, N]⟩ ⟨2, ![R, N]⟩)
    (hd : d = DotDims.plain R K N) (prec prec' : Option ContractPrecision)
    (a : FVec Ideal ⟨2, ![R, K]⟩ φ₁) (u : FVec Ideal ⟨2, ![K, N]⟩ φ₂)
    (x : FVec Ideal ⟨2, ![R, K]⟩ φ₃) (w : FVec Ideal ⟨2, ![K, N]⟩ φ₄) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) :
    addf (addf (Host.dotGeneral d prec a u)
            (broadcastInDim ⟨2, ![R, N]⟩ ![0, 1] h2 (broadcastInDim ⟨2, ![1, N]⟩ ![1] h1 b)))
          (Host.dotGeneral d prec' x w : FVec Ideal ⟨2, ![R, N]⟩ .f32)
      = wholeOf a x u w (vec b) := by
  funext i
  obtain ⟨r, n, rfl⟩ : ∃ (r : Fin R) (n : Fin N), i = ix2 r n := ⟨i 0, i 1, eq_ix2 i⟩
  exact congrFun (row_host d hd prec prec' a u x w b h1 h2 r) n

/-- An `[N]` array cast to one row `[1, N]` has the array as that row. -/
theorem row_cast_vec {N : ℕ} (b : (⟨1, ![N]⟩ : Shape).Idx → EReal) (hc : (⟨1, ![N]⟩ : Shape).ShapeCasts ⟨2, ![1, N]⟩) :
    row (shapeCast ⟨2, ![1, N]⟩ b hc) (0 : Fin 1) = vec b := by
  funext n
  show shapeCast ⟨2, ![1, N]⟩ b hc (ix2 (0 : Fin 1) n) = b (ix1 n)
  rw [shapeCast_a_1a_apply]

end Cert.LibLayerSum

end
-- ==== Proof.LibRecip.lean ====
/-
  Dividing against multiplying by the reciprocal, on the extended reals; and a row spread over rows.

  A program that precomputes 1 / d and multiplies, against one that divides by d: the quotient is x · d⁻¹ except at d = 0
  (where it is an infinity by the sign of x), and the inverse of an infinity is 0. So x / d = x · (1 / d) for EVERY extended
  real x as soon as d ≠ 0 — d may be infinite, x may be infinite, no finiteness is needed. A count clamped below at one,
  max (s, 1), is such a d. The last lemma reads a one-row matrix broadcast over m rows at an entry.
-/
import Idealize.ShloMosaic.PureOps.Ideal
import Idealize.ShloMosaic.Lib.ValueIdx
import Idealize.ShloMosaic.Lib.Pipeline.Value

noncomputable section

namespace Cert.LibRecip

open Idealize.ShloMosaic Idealize.ShloMosaic.ValueIdx

/-- Dividing by a non-zero d is multiplying by its reciprocal 1 / d, for every extended real x and d. -/
theorem div_eq_mul_recip (x d : EReal) (hd : d ≠ 0) : Ideal.div x d = x * Ideal.div 1 d := by
  rw [Ideal.div, if_neg hd, Ideal.div, if_neg hd, one_mul]

/-- A quantity clamped below at one is never zero. -/
theorem max_one_ne_zero (s : EReal) : max s (1 : EReal) ≠ 0 :=
  ne_of_gt (lt_of_lt_of_le (by norm_num : (0 : EReal) < 1) (le_max_right s 1))

/-- A row [1, n] spread over m rows reads, at (r, q), the row at q. -/
theorem bcast_row {α : Type} {m n : ℕ} (v : (⟨2, ![1, n]⟩ : Shape).Idx → α) (h : (⟨2, ![1, n]⟩ : Shape).Broadcasts ⟨2, ![m, n]⟩)
    (r : Fin m) (q : Fin n) : broadcastTo ⟨2, ![m, n]⟩ v h (ix2 r q) = v (ix2 (0 : Fin 1) q) := by
  refine broadcastTo_apply v h (ix2 r q) (ix2 (0 : Fin 1) q) fun ax => ?_
  match ax with
  | ⟨0, _⟩ => rfl
  | ⟨1, _⟩ =>
    show q.val = if n = 1 then 0 else q.val
    split
    · have := q.isLt; omega
    · rfl

end Cert.LibRecip

end
-- ==== Proof.LibMeanConv.lean ====
/-
  A two-layer mean-aggregating graph convolution, as functions of whole arrays on the extended reals.

  One layer takes node features `X` ([R, K]), the per-node sums `S` of the neighbours' feature rows, the per-node
  neighbour counts clamped below at one `d`, two weight matrices `U`, `W` ([K, N]) and a bias `b`, and returns the array
  whose row `r` is  (S r / d r) · U + b + X r · W.  Two programs spell it differently:
    * the mean is `S r · (1 / d r)` in one and `S r / d r` in the other — equal as soon as `d r ≠ 0`, with no
      finiteness asked of `S` or of `d` (the inverse of an infinity is 0 on both sides);
    * the three summands are grouped `(A·U + X·W) + b` in one and `(A·U + b) + X·W` in the other — equal because
      addition of extended reals is commutative and associative.
  The dense part is `wholeOf` of LibLayerSum.lean; this file adds the block spelling with the other grouping, the
  rectified layer, the reading of a per-row scalar broadcast over the lanes, and the equality of the two means.
-/
import Idealize.ShloMosaic.Lib.ValueLayout
import Idealize.ShloMosaic.Lib.ValueIdx
import Idealize.ShloMosaic.Lib.IdealHost
import Idealize.ShloMosaic.Lib.Pipeline.Value
import Idealize.ShloMosaic.PureOps.Ideal.Laws
import proofs.«147912_j39702677684849_1_alg».proof.Proof.LibDenseRows
import proofs.«147912_j39702677684849_1_alg».proof.Proof.LibBlockRows
import proofs.«147912_j39702677684849_1_alg».proof.Proof.LibLayerSum
import proofs.«147912_j39702677684849_1_alg».proof.Proof.LibRecip

noncomputable section

namespace Cert.Sage

open Idealize.ShloMosaic Idealize.ShloMosaic.ValueIdx Cert.DenseRows Cert.LibBlockRows Cert.LibLayerSum

/-! ## The dense part of a layer, with and without the rectifier -/

/-- The array whose row `r` is `(A r · U + b) + X r · W`. -/
def dense {R K N : ℕ} (A X : (⟨2, ![R, K]⟩ : Shape).Idx → EReal) (U W : (⟨2, ![K, N]⟩ : Shape).Idx → EReal)
    (b : Fin N → EReal) : (⟨2, ![R, N]⟩ : Shape).Idx → EReal :=
  wholeOf A X U W b

/-- The same array with every entry replaced by its maximum with the number the all-zero f32 word denotes. -/
def denseRelu {R K N : ℕ} (A X : (⟨2, ![R, K]⟩ : Shape).Idx → EReal) (U W : (⟨2, ![K, N]⟩ : Shape).Idx → EReal)
    (b : Fin N → EReal) : (⟨2, ![R, N]⟩ : Shape).Idx → EReal :=
  fun i => max (wholeOf A X U W b i) (Ideal.ofBits .f32 0x00000000#32)

theorem dense_ix2 {R K N : ℕ} (A X : (⟨2, ![R, K]⟩ : Shape).Idx → EReal) (U W : (⟨2, ![K, N]⟩ : Shape).Idx → EReal)
    (b : Fin N → EReal) (r : Fin R) (n : Fin N) :
    dense A X U W b (ix2 r n) = layerSum (row A r) (row X r) (mat U) (mat W) b n := rfl

theorem denseRelu_ix2 {R K N : ℕ} (A X : (⟨2, ![R, K]⟩ : Shape).Idx → EReal) (U W : (⟨2, ![K, N]⟩ : Shape).Idx → EReal)
    (b : Fin N → EReal) (r : Fin R) (n : Fin N) :
    denseRelu A X U W b (ix2 r n)
      = max (layerSum (row A r) (row X r) (mat U) (mat W) b n) (Ideal.ofBits .f32 0x00000000#32) := rfl

/-! ## A block of rows in the grouping `(a · u + x · w) + b` -/

/-- Row `r` of `(a ·ₘ u + x ·ₘ w) + spread b`, the products accumulated into zero splats, the bias a one-row matrix
    spread over the rows: the same function of the two rows as the grouping `(a · u + b) + x · w`, by
    `(p + q) + c = (p + c) + q`. -/
theorem row_block_bias_last {R K N : ℕ} {φ₁ φ₂ φ₃ φ₄ : FTy} (d : DotDims ⟨2, ![R, K]⟩ ⟨2, ![K, N]⟩ ⟨2, ![R, N]⟩)
    (hd : d = DotDims.plain R K N) (prec prec' : Option ContractPrecision)
    (a : FVec Ideal ⟨2, ![R, K]⟩ φ₁) (u : FVec Ideal ⟨2, ![K, N]⟩ φ₂)
    (x : FVec Ideal ⟨2, ![R, K]⟩ φ₃) (w : FVec Ideal ⟨2, ![K, N]⟩ φ₄) (b : FVec Ideal ⟨2, ![1, N]⟩ .f32)
    (hb : (⟨2, ![1, N]⟩ : Shape).Broadcasts ⟨2, ![R, N]⟩) (r : Fin R) :
    row (addf (addf (matmul d prec a u (constant (F := Ideal) ⟨2, ![R, N]⟩ .f32 0x00000000#32))
            (matmul d prec' x w (constant (F := Ideal) ⟨2, ![R, N]⟩ .f32 0x00000000#32)))
          (broadcastTo ⟨2, ![R, N]⟩ b hb)) r
      = layerSum (row a r) (row x r) (mat u) (mat w) (row b (0 : Fin 1)) := by
  funext n
  show (row (matmul d prec a u (constant (F := Ideal) ⟨2, ![R, N]⟩ .f32 0x00000000#32)) r n
        + row (matmul d prec' x w (constant (F := Ideal) ⟨2, ![R, N]⟩ .f32 0x00000000#32)) r n)
        + broadcastTo ⟨2, ![R, N]⟩ b hb (ix2 r n) = _
  rw [row_matmul d hd, row_matmul d hd, row_spread]
  exact add_right_comm _ _ _

/-! ## A per-row scalar spread over the lanes -/

/-- A vector [R] broadcast in dimension to a column [R, 1] and then over K lanes reads, at (r, k), the vector at r. -/
theorem column_twice_apply {α : Type} {R K : ℕ} (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, K]⟩ ![0, 1]) (r : Fin R) (k : Fin K) :
    broadcastInDim ⟨2, ![R, K]⟩ ![0, 1] h2 (broadcastInDim ⟨2, ![R, 1]⟩ ![0] h1 v) (ix2 r k) = v (ix1 r) := by
  have hR : r.val = if R = 1 then 0 else r.val := by
    split
    · have := r.isLt; omega
    · rfl
  rw [broadcastInDim_apply ![0, 1] h2 _ (ix2 r k) (ix2 r (0 : Fin 1)) (fun a => by
      match a with
      | ⟨0, _⟩ => exact hR
      | ⟨1, _⟩ => rfl),
    broadcastInDim_apply ![0] h1 v (ix2 r (0 : Fin 1)) (ix1 r) (fun a => by
      match a with
      | ⟨0, _⟩ => exact hR)]

/-! ## The mean of the neighbours' rows, in its two spellings -/

/-- `S · spread (ones / d)` and `S / spread d` are one array when `ones` is 1 everywhere and `d` is nowhere 0. -/
theorem mean_mul_eq_div {R K : ℕ} (S : FVec Ideal ⟨2, ![R, K]⟩ .f32) (ones d : FVec Ideal ⟨1, ![R]⟩ .f32)
    (h1 : (⟨1, ![R]⟩ : Shape).BroadcastsInDim ⟨2, ![R, 1]⟩ ![0])
    (h2 : (⟨2, ![R, 1]⟩ : Shape).BroadcastsInDim ⟨2, ![R, K]⟩ ![0, 1])
    (hones : ∀ i, ones i = 1) (hd : ∀ i, d i ≠ 0) :
    mulf S (broadcastInDim ⟨2, ![R, K]⟩ ![0, 1] h2 (broadcastInDim ⟨2, ![R, 1]⟩ ![0] h1 (Host.divf ones d)))
      = Host.divf S (broadcastInDim ⟨2, ![R, K]⟩ ![0, 1] h2 (broadcastInDim ⟨2, ![R, 1]⟩ ![0] h1 d)) := by
  funext i
  obtain ⟨r, k, rfl⟩ : ∃ (r : Fin R) (k : Fin K), i = ix2 r k := ⟨i 0, i 1, eq_ix2 i⟩
  show S (ix2 r k) * broadcastInDim ⟨2, ![R, K]⟩ ![0, 1] h2 (broadcastInDim ⟨2, ![R, 1]⟩ ![0] h1 (Host.divf ones d)) (ix2 r k)
      = Ideal.div (S (ix2 r k)) (broadcastInDim ⟨2, ![R, K]⟩ ![0, 1] h2 (broadcastInDim ⟨2, ![R, 1]⟩ ![0] h1 d) (ix2 r k))
  rw [column_twice_apply, column_twice_apply]
  show S (ix2 r k) * Ideal.div (ones (ix1 r)) (d (ix1 r)) = _
  rw [hones, Cert.LibRecip.div_eq_mul_recip (S (ix2 r k)) _ (hd _)]

/-- A count clamped below at the number the f32 word of 1.0 denotes is nowhere 0. -/
theorem clamped_ne_zero {t : Shape} (cnt : FVec Ideal t .f32)
    (dims : Fin (⟨0, ![]⟩ : Shape).rank → Fin t.rank) (h : (⟨0, ![]⟩ : Shape).BroadcastsInDim t dims) (i : t.Idx) :
    maximumf cnt (broadcastInDim t dims h (constant (F := Ideal) ⟨0, ![]⟩ .f32 0x3F800000#32)) i ≠ 0 := by
  show max (cnt i) (broadcastInDim t dims h (constant (F := Ideal) ⟨0, ![]⟩ .f32 0x3F800000#32) i) ≠ 0
  rw [splat_apply]
  show max (cnt i) (Ideal.ofBits .f32 0x3F800000#32) ≠ 0
  rw [Ideal.ofBits_one_f32]
  exact Cert.LibRecip.max_one_ne_zero _

/-- The all-ones vector: a rank-zero constant of the f32 word of 1.0 broadcast to any shape is 1 everywhere. -/
theorem ones_apply {t : Shape} (dims : Fin (⟨0, ![]⟩ : Shape).rank → Fin t.rank)
    (h : (⟨0, ![]⟩ : Shape).BroadcastsInDim t dims) (i : t.Idx) :
    broadcastInDim t dims h (constant (F := Ideal) ⟨0, ![]⟩ .f32 0x3F800000#32) i = 1 := by
  rw [splat_apply]
  show Ideal.ofBits .f32 0x3F800000#32 = 1
  exact Ideal.ofBits_one_f32

/-! ## The two layers as one function of the argument arrays -/

/-- The mean of the neighbours' rows: the per-node sums `nb f` divided, row by row, by the clamped count `d`. -/
def meanDiv {R K : ℕ} (nb : FVec Ideal ⟨2, ![R, K]⟩ .f32 → FVec Ideal ⟨2, ![R, K]⟩ .f32) (d : FVec Ideal ⟨1, ![R]⟩ .f32)
    (h1 : (⟨1, ![R]⟩ : Shape).BroadcastsInDim ⟨2, ![R, 1]⟩ ![0])
    (h2 : (⟨2, ![R, 1]⟩ : Shape).BroadcastsInDim ⟨2, ![R, K]⟩ ![0, 1])
    (f : FVec Ideal ⟨2, ![R, K]⟩ .f32) : FVec Ideal ⟨2, ![R, K]⟩ .f32 :=
  Host.divf (nb f) (broadcastInDim ⟨2, ![R, K]⟩ ![0, 1] h2 (broadcastInDim ⟨2, ![R, 1]⟩ ![0] h1 d))

/-- Two layers: the rectified layer of `x`, then the plain layer of its result `h`, each fed the mean of the neighbours'
    rows of its own input. `nb` is the operator "sum, per node, the rows of its in-neighbours" and `d` the clamped
    in-degree; both are fixed by the edge list alone. -/
def net {R K N : ℕ} (nb : FVec Ideal ⟨2, ![R, K]⟩ .f32 → FVec Ideal ⟨2, ![R, K]⟩ .f32) (d : FVec Ideal ⟨1, ![R]⟩ .f32)
    (h1 : (⟨1, ![R]⟩ : Shape).BroadcastsInDim ⟨2, ![R, 1]⟩ ![0])
    (h2 : (⟨2, ![R, 1]⟩ : Shape).BroadcastsInDim ⟨2, ![R, K]⟩ ![0, 1])
    (x : FVec Ideal ⟨2, ![R, K]⟩ .f32) (U1 W1 : FVec Ideal ⟨2, ![K, K]⟩ .f32) (b1 : Fin K → EReal)
    (U2 W2 : FVec Ideal ⟨2, ![K, N]⟩ .f32) (b2 : Fin N → EReal) : (⟨2, ![R, N]⟩ : Shape).Idx → EReal :=
  dense (meanDiv nb d h1 h2 (denseRelu (meanDiv nb d h1 h2 x) x U1 W1 b1)) (denseRelu (meanDiv nb d h1 h2 x) x U1 W1 b1) U2 W2 b2

end Cert.Sage

end
-- ==== Proof.KRun.lean ====
/-
  The run of the idealized two-layer program with its result NAMED.

  The program is four segments: host operations, the first dense layer (a grid of 20 row blocks), host operations, the
  second dense layer (again 20 row blocks). Its buffer contents at the four segment boundaries are a fold from the
  launch memory; the last of them, `W4`, is what every unscoped buffer holds when the program returns. So every weakly
  fair execution terminates without a fault in a state whose result buffer holds `W4` at that buffer and whose argument
  arrays are as launched. The result buffer is the array of the second layer's output window, so `W4` there is what the
  second layer's write-backs leave: the fold of the 20 flushed blocks (`result_eq_arrAt`).
-/
import proofs.«147912_j39702677684849_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the eight argument arrays as launched. -/
theorem run_named : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result buffer is the array of the second layer's output window: at the last boundary it holds what that
    layer's write-backs leave. -/
theorem result_eq_arrAt (c : Dev nD) :
    W4 m ρ c (Proc.devRef .tc main_v40) = (dat1 (V3 m ρ) c).arrAt 5 cfg1.N :=
  W4_arr m ρ c 5

end Cert.KernelIdeal.Named

end
-- ==== Proof.HostK.lean ====
/-
  What the idealized program's host operations hand to its two dense layers.

  Before the first layer the host computes, from the edge list `e` ([2, E]: row 0 the source of each edge, row 1 its
  destination) and the node features `x`: the per-node sum of the in-neighbours' feature rows (`nb e x`: gather the
  source rows, add each into its destination's row of a zero array), the in-degree clamped below at one
  (`clampedCount e`: add a one per edge into its destination's entry, then the maximum with one), its reciprocal as
  a column (`invCol e`), and their product row by row, the mean `meanMul e x`. It also casts the bias to one row.
  Between the layers it does the same with the first layer's output in place of `x`, reusing the edge columns and the
  reciprocal column computed before. This file reads those buffers off the program's fold of buffer contents:
  each is the stated term of the launch memory (`m`) and, for the second mean, of the first layer's output array.
-/
import proofs.«147912_j39702677684849_1_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-! ## The terms -/

/-- Row 0 of the edge list as a vector: the edges' sources. -/
def srcVec (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- Row 1 of the edge list as a vector: the edges' destinations. -/
def dstVec (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- Per node, the sum of the feature rows of its in-neighbours (a negative source counts from the end). -/
def nb (e : (⟨S2x1600000, .i32⟩ : BufTy).Contents (Elt Ideal)) (f : (⟨S100000x128, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstVec e))
    (Host.gather gather_S100000x128_S1600000x1_S1600000x128_1_0_n_n_0_1_1128 f
      (broadcastInDim S1600000x1 ![0] bcast_S1600000_S1600000x1_0
        (select (cmpi .slt (srcVec e) (broadcastInDim S1600000 ![] bcast_S_S1600000 (constantI S_ 32 0#32)))
          (addi (srcVec e) (broadcastInDim S1600000 ![] bcast_S_S1600000 (constantI S_ 32 100000#32))) (srcVec e))))

/-- Per node, its in-degree clamped below at one. -/
def clampedCount (e : (⟨S2x1600000, .i32⟩ : BufTy).Contents (Elt Ideal)) : (⟨S100000, .f32⟩ : BufTy).Contents (Elt Ideal) :=
  maximumf (F := Ideal) (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 (dstVec e))
      (broadcastInDim S1600000 ![] bcast_S_S1600000 (constant (F := Ideal) S_ .f32 0x3F800000#32)))
    (broadcastInDim S100000 ![] bcast_S_S100000 (constant (F := Ideal) S_ .f32 0x3F800000#32))

/-- The reciprocal of the clamped in-degree, as a column. -/
def invCol (e : (⟨S2x1600000, .i32⟩ : BufTy).Contents (Elt Ideal)) : (⟨S100000x1, .f32⟩ : BufTy).Contents (Elt Ideal) :=
  broadcastInDim S100000x1 ![0] bcast_S100000_S100000x1_0
    (Host.divf (F := Ideal) (broadcastInDim S100000 ![] bcast_S_S100000 (constant (F := Ideal) S_ .f32 0x3F800000#32)) (clampedCount e))

/-- The mean of the in-neighbours' rows, as the sums times the reciprocal column spread over the lanes. -/
def meanMul (e : (⟨S2x1600000, .i32⟩ : BufTy).Contents (Elt Ideal)) (f : (⟨S100000x128, .f32⟩ : BufTy).Contents (Elt Ideal)) :
    (⟨S100000x128, .f32⟩ : BufTy).Contents (Elt Ideal) :=
  mulf (F := Ideal) (φ := .f32) (nb e f) (broadcastInDim S100000x128 ![0, 1] bcast_S100000x1_S100000x128_0_1 (invCol e))

variable (m : (ℓ : Loc nD τ sig) → Buf (Elt Ideal) ℓ) (ρ : Dev nD → PrngReg)

/-! ## At the first layer's entry -/

theorem V1_v1 (c : Dev nD) : V1 m ρ c main_v1 = srcVec (m ((c : Thread nD τ).loc main_arg1)) := by
  show StableHlo.after hostOps0 (W0 m ρ c) (Proc.devRef .tc main_v1) = _
  unfold hostOps0 srcVec
  after_results_simp
  rfl

theorem V1_v3 (c : Dev nD) : V1 m ρ c main_v3 = dstVec (m ((c : Thread nD τ).loc main_arg1)) := by
  show StableHlo.after hostOps0 (W0 m ρ c) (Proc.devRef .tc main_v3) = _
  unfold hostOps0 dstVec
  after_results_simp
  rfl

theorem V1_v12 (c : Dev nD) : V1 m ρ c main_v12 = invCol (m ((c : Thread nD τ).loc main_arg1)) := by
  show StableHlo.after hostOps0 (W0 m ρ c) (Proc.devRef .tc main_v12) = _
  unfold hostOps0 invCol clampedCount dstVec
  after_results_simp
  rfl

theorem V1_v24 (c : Dev nD) :
    V1 m ρ c main_v24 = meanMul (m ((c : Thread nD τ).loc main_arg1)) (m ((c : Thread nD τ).loc main_arg0)) := by
  show StableHlo.after hostOps0 (W0 m ρ c) (Proc.devRef .tc main_v24) = _
  unfold hostOps0 meanMul nb invCol clampedCount srcVec dstVec
  after_results_simp
  rfl

theorem V1_v25 (c : Dev nD) :
    V1 m ρ c main_v25 = shapeCast _ (m ((c : Thread nD τ).loc main_arg4)) shapeCasts_S128_S1x128 := by
  show StableHlo.after hostOps0 (W0 m ρ c) (Proc.devRef .tc main_v25) = _
  unfold hostOps0
  after_results_simp
  rfl

theorem V1_arg (c : Dev nD) (b : Ref sig .tc) (hb : b = main_arg0 ∨ b = main_arg2 ∨ b = main_arg3 ∨ b = main_arg5 ∨ b = main_arg6 ∨ b = main_arg7) :
    V1 m ρ c b = m ((c : Thread nD τ).loc b) := by
  show StableHlo.after hostOps0 (W0 m ρ c) (Proc.devRef .tc b) = _
  unfold hostOps0
  rcases hb with rfl | rfl | rfl | rfl | rfl | rfl <;> (after_results_simp <;> rfl)

/-! ## At the first layer's exit: only its output array has changed -/

theorem V2_v1 (c : Dev nD) : V2 m ρ c main_v1 = srcVec (m ((c : Thread nD τ).loc main_arg1)) :=
  (W2_of_ne m ρ c main_v1 (by decide)).trans (V1_v1 m ρ c)

theorem V2_v3 (c : Dev nD) : V2 m ρ c main_v3 = dstVec (m ((c : Thread nD τ).loc main_arg1)) :=
  (W2_of_ne m ρ c main_v3 (by decide)).trans (V1_v3 m ρ c)

theorem V2_v12 (c : Dev nD) : V2 m ρ c main_v12 = invCol (m ((c : Thread nD τ).loc main_arg1)) :=
  (W2_of_ne m ρ c main_v12 (by decide)).trans (V1_v12 m ρ c)

theorem V2_arg (c : Dev nD) (b : Ref sig .tc) (hb : b = main_arg5 ∨ b = main_arg6 ∨ b = main_arg7) :
    V2 m ρ c b = m ((c : Thread nD τ).loc b) := by
  rcases hb with rfl | rfl | rfl
  · exact (W2_of_ne m ρ c main_arg5 (by decide)).trans (V1_arg m ρ c main_arg5 (by simp))
  · exact (W2_of_ne m ρ c main_arg6 (by decide)).trans (V1_arg m ρ c main_arg6 (by simp))
  · exact (W2_of_ne m ρ c main_arg7 (by decide)).trans (V1_arg m ρ c main_arg7 (by simp))

/-- The first layer's output array at its exit is what its twenty write-backs leave. -/
theorem V2_v26 (c : Dev nD) : V2 m ρ c main_v26 = (dat0 (V1 m ρ) c).arrAt 5 cfg0.N :=
  W2_arr m ρ c 5

/-! ## At the second layer's entry -/

theorem V3_v38 (c : Dev nD) :
    V3 m ρ c main_v38 = meanMul (m ((c : Thread nD τ).loc main_arg1)) (V2 m ρ c main_v26) := by
  show StableHlo.after hostOps1 (W2 m ρ c) (Proc.devRef .tc main_v38) = _
  unfold hostOps1
  after_results_simp
  rw [show W2 m ρ c (Proc.devRef .tc main_v1) = _ from V2_v1 m ρ c, show W2 m ρ c (Proc.devRef .tc main_v3) = _ from V2_v3 m ρ c,
    show W2 m ρ c (Proc.devRef .tc main_v12) = _ from V2_v12 m ρ c]
  unfold meanMul nb
  rfl

theorem V3_v26 (c : Dev nD) : V3 m ρ c main_v26 = V2 m ρ c main_v26 := by
  show StableHlo.after hostOps1 (W2 m ρ c) (Proc.devRef .tc main_v26) = _
  unfold hostOps1
  after_results

theorem V3_v39 (c : Dev nD) :
    V3 m ρ c main_v39 = shapeCast _ (m ((c : Thread nD τ).loc main_arg7)) shapeCasts_S64_S1x64 := by
  show StableHlo.after hostOps1 (W2 m ρ c) (Proc.devRef .tc main_v39) = _
  unfold hostOps1
  after_results
  rw [show W2 m ρ c (Proc.devRef .tc main_arg7) = _ from V2_arg m ρ c main_arg7 (by simp)]
  rfl

theorem V3_arg (c : Dev nD) (b : Ref sig .tc) (hb : b = main_arg5 ∨ b = main_arg6) :
    V3 m ρ c b = m ((c : Thread nD τ).loc b) := by
  rcases hb with rfl | rfl
  · refine Eq.trans ?_ (V2_arg m ρ c main_arg5 (by simp))
    show StableHlo.after hostOps1 (W2 m ρ c) (Proc.devRef .tc main_arg5) = _
    unfold hostOps1
    after_results
  · refine Eq.trans ?_ (V2_arg m ρ c main_arg6 (by simp))
    show StableHlo.after hostOps1 (W2 m ρ c) (Proc.devRef .tc main_arg6) = _
    unfold hostOps1
    after_results

end Cert.KernelIdeal.HostValue

end
-- ==== Proof.Region0.lean ====
/-
  The first of the two layers, block of rows by block of rows.

  The output array has 100000 rows of 128 entries. Its entry (i, n) is the rectified sum
      max( ((∑ k, A i k · U k n) + b n) + ∑ k, X i k · W k n , 0 ),
  where A is the array of neighbour means, X the array of node features, U and W the two 128 × 128 weight matrices and
  b the bias row. So entry (i, n) depends on row i of A, row i of X, column n of U and of W, and b n — on nothing else.

  The work is cut into 20 grid points. Point t holds rows 5000·t … 5000·t + 4999 of A and of X, the whole of U, W and b,
  and writes rows 5000·t … 5000·t + 4999 of the output. Row r of the block a point holds is row 5000·t + r of the array,
  so what the point writes at (r, n) is the formula above at i = 5000·t + r: every point writes its block of ONE array,
  the same for all points. Row i lies in the block of point i / 5000, and i < 100000 gives i / 5000 < 20: the 20 blocks
  of 5000 rows cover all rows (20 · 5000 = 100000), every lane 0 … 127 being inside each block. Hence after the 20
  write-backs the output array is that one array, whatever it held before.
-/
import proofs.«147912_j39702677684849_1_alg».proof.Proof.Gen.KernelIdeal.Frame
import proofs.«147912_j39702677684849_1_alg».proof.Proof.LibMeanConv
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx Cert.DenseRows Cert.LibLayerSum

/-! ## One block: the stored value at an entry -/

/-- The offset (0, 0) is the zero offset. -/
theorem origin : (![0, 0] : Fin 2 → Nat) = fun _ => 0 := funext fun a => by fin_cases a <;> rfl

/-- The two products contract the left operand's lanes with the right operand's rows, with no batch axis. -/
theorem dims_plain : dot_S5000x128_S128x128_S5000x128_1_0_0_1_n_n = DotDims.plain 5000 128 128 := rfl

/-- Entry (r, n) of the value a point stores: the rectified layer sum of row r of its two row blocks. Rounding the
    operands to a shorter format changes nothing on the extended reals, nor does a reshape to the same shape. -/
theorem stored_entry (x0 x1 : Vec Ideal S5000x128 .f32) (x2 x3 : Vec Ideal S128x128 .f32) (x4 : Vec Ideal S1x128 .f32)
    (r : Fin 5000) (n : Fin 128) :
    k0_pay1 (F := Ideal) x0 x1 x2 x3 x4 (ix2 r n)
      = max (layerSum (row x0 r) (row x1 r) (mat x2) (mat x3) (row x4 (0 : Fin 1)) n) (Ideal.ofBits .f32 0x00000000#32) := by
  unfold k0_pay1
  refine congrArg (fun z : EReal => max z (Ideal.ofBits .f32 0x00000000#32)) ?_
  refine (congrFun (Cert.Sage.row_block_bias_last dot_S5000x128_S128x128_S5000x128_1_0_0_1_n_n dims_plain none none
    (truncf .bf16 (shapeCast S5000x128 x0 shapeCasts_S5000x128_S5000x128) bitsLt_bf16_f32)
    (truncf .bf16 x2 bitsLt_bf16_f32) (truncf .bf16 x1 bitsLt_bf16_f32) (truncf .bf16 x3 bitsLt_bf16_f32)
    (shapeCast S1x128 x4 shapeCasts_S1x128_S1x128) broadcasts_S1x128_S5000x128 r) n).trans ?_
  rw [row_truncf, row_truncf, row_shapeCast_self, row_shapeCast_self]
  rfl

/-! ## Which block each point holds -/

variable (V : (c : Dev nD) → (b : Ref sig .tc) → Buf (Elt Ideal) ((c : Thread nD τ).loc b))

/-- At point t the two row blocks and the output block sit at block row t, block column 0; the weights and the bias
    at block (0, 0). -/
theorem block_positions : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of the block of neighbour means at point t is row 5000·t + r of the array of neighbour means. -/
theorem meanBlock_row (c : Dev nD) (t : Fin cfg0.N) (r : Fin 5000) (q : Fin 100000) (hq : q.val = 5000 * t.val + r.val) :
    row (iblk0 (F := Ideal) V c 0 t : Vec Ideal S5000x128 .f32) r = row (V c main_v24 : Vec Ideal S100000x128 .f32) q := by
  funext k
  show V c main_v24 (((cfg0.win 0).blk t).view.emb (ix2 r k)) = V c main_v24 (ix2 q k)
  have h : ((cfg0.win 0).blk t).view.emb (ix2 r k) = ix2 q k := by
    obtain ⟨e0, e1, -, -, -, -, -, -, -, -, e10, -⟩ := block_positions t
    funext a; apply Fin.ext
    match a with
    | ⟨0, _⟩ => show win0_0.index t (0 : Fin 2) * 5000 + 1 * r.val = q.val; omega
    | ⟨1, _⟩ => show win0_0.index t (1 : Fin 2) * 128 + 1 * k.val = k.val; omega
  rw [h]

/-- Row r of the block of node features at point t is row 5000·t + r of the array of node features. -/
theorem featBlock_row (c : Dev nD) (t : Fin cfg0.N) (r : Fin 5000) (q : Fin 100000) (hq : q.val = 5000 * t.val + r.val) :
    row (iblk0 (F := Ideal) V c 1 t : Vec Ideal S5000x128 .f32) r = row (V c main_arg0 : Vec Ideal S100000x128 .f32) q := by
  funext k
  show V c main_arg0 (((cfg0.win 1).blk t).view.emb (ix2 r k)) = V c main_arg0 (ix2 q k)
  have h : ((cfg0.win 1).blk t).view.emb (ix2 r k) = ix2 q k := by
    obtain ⟨-, -, e2, e3, -, -, -, -, -, -, e10, -⟩ := block_positions t
    funext a; apply Fin.ext
    match a with
    | ⟨0, _⟩ => show win0_1.index t (0 : Fin 2) * 5000 + 1 * r.val = q.val; omega
    | ⟨1, _⟩ => show win0_1.index t (1 : Fin 2) * 128 + 1 * k.val = k.val; omega
  rw [h]

/-- Every point holds the whole of the first weight matrix. -/
theorem weightU_whole (c : Dev nD) (t : Fin cfg0.N) :
    (iblk0 (F := Ideal) V c 2 t : Vec Ideal S128x128 .f32) = V c main_arg2 := by
  funext y
  show V c main_arg2 (((cfg0.win 2).blk t).view.emb y) = V c main_arg2 y
  have h : ((cfg0.win 2).blk t).view.emb y = y := by
    obtain ⟨-, -, -, -, e4, e5, -, -, -, -, -, -⟩ := block_positions t
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  rw [h]

/-- Every point holds the whole of the second weight matrix. -/
theorem weightW_whole (c : Dev nD) (t : Fin cfg0.N) :
    (iblk0 (F := Ideal) V c 3 t : Vec Ideal S128x128 .f32) = V c main_arg3 := by
  funext y
  show V c main_arg3 (((cfg0.win 3).blk t).view.emb y) = V c main_arg3 y
  have h : ((cfg0.win 3).blk t).view.emb y = y := by
    obtain ⟨-, -, -, -, -, -, e6, e7, -, -, -, -⟩ := block_positions t
    funext a; apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  rw [h]

/-- Every point holds the whole bias row. -/
theorem bias_whole (c : Dev nD) (t : Fin cfg0.N) :
    (iblk0 (F := Ideal) V c 4 t : Vec Ideal S1x128 .f32) = V c main_v25 := by
  funext y
  show V c main_v25 (((cfg0.win 4).blk t).view.emb y) = V c main_v25 y
  have h : ((cfg0.win 4).blk t).view.emb y = y := by
    obtain ⟨-, -, -, -, -, -, -, -, e8, e9, -, -⟩ := block_positions t
    funext a; apply Fin.ext
    match a with
    | ⟨0, _⟩ => show win0_4.index t (0 : Fin 2) * 1 + 1 * (y 0).val = (y 0).val; omega
    | ⟨1, _⟩ => show win0_4.index t (1 : Fin 2) * 128 + 1 * (y 1).val = (y 1).val; omega
  rw [h]

/-- Entry (r, n) of the output block at point t is entry (5000·t + r, n) of the output array. -/
theorem outBlock_entry (t : Fin cfg0.N) (r : Fin 5000) (n : Fin 128) (q : Fin 100000) (hq : q.val = 5000 * t.val + r.val) :
    ((cfg0.win 5).blk t).view.emb (ix2 r n) = (ix2 q n : S100000x128.Idx) := by
  obtain ⟨-, -, -, -, -, -, -, -, -, -, e10, e11⟩ := block_positions t
  funext a; apply Fin.ext
  match a with
  | ⟨0, _⟩ => show win0_5.index t (0 : Fin 2) * 5000 + 1 * r.val = q.val; omega
  | ⟨1, _⟩ => show win0_5.index t (1 : Fin 2) * 128 + 1 * n.val = n.val; omega

/-! ## What a point writes back -/

/-- Point t writes back rows 5000·t … 5000·t + 4999 of the rectified layer of the five arrays. -/
theorem written_block (c : Dev nD) (t : Fin cfg0.N) :
    (dat0 (F := Ideal) V c).flushed 5 t = ((cfg0.win 5).blk t).view.read (Elt Ideal)
      (Cert.Sage.denseRelu (V c main_v24) (V c main_arg0) (V c main_arg2) (V c main_arg3) (row (V c main_v25) (0 : Fin 1))) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin, View.ld_unit_zero (S := S1x128) origin]
  funext j
  obtain ⟨r, n, rfl⟩ : ∃ (r : Fin 5000) (n : Fin 128), j = ix2 r n := ⟨j 0, j 1, eq_ix2 j⟩
  have ht : t.val < 20 := lt_of_lt_of_eq t.isLt N_0
  have hq : 5000 * t.val + r.val < 100000 := by have := r.isLt; omega
  show k0_pay1 (F := Ideal) (iblk0 V c 0 t) (iblk0 V c 1 t) (iblk0 V c 2 t) (iblk0 V c 3 t) (iblk0 V c 4 t) (ix2 r n)
      = Cert.Sage.denseRelu (V c main_v24) (V c main_arg0) (V c main_arg2) (V c main_arg3) (row (V c main_v25) (0 : Fin 1))
          (((cfg0.win 5).blk t).view.emb (ix2 r n))
  rw [outBlock_entry t r n ⟨5000 * t.val + r.val, hq⟩ rfl, Cert.Sage.denseRelu_ix2]
  refine (stored_entry (iblk0 V c 0 t) (iblk0 V c 1 t) (iblk0 V c 2 t) (iblk0 V c 3 t) (iblk0 V c 4 t) r n).trans ?_
  rw [meanBlock_row V c t r ⟨5000 * t.val + r.val, hq⟩ rfl, featBlock_row V c t r ⟨5000 * t.val + r.val, hq⟩ rfl,
    weightU_whole V c t, weightW_whole V c t, bias_whole V c t]

/-! ## The blocks cover the array -/

/-- An entry of the output array lies in point t's block iff, on each axis, its coordinate is within the block's span. -/
theorem mem_outBlock (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Row i of the output lies in the block of point i / 5000, which is one of the 20 points because i < 100000. -/
theorem rows_covered (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, htv⟩ : ∃ t : Fin cfg0.N, t.val = (i 0).val / 5000 :=
    ⟨⟨(i 0).val / 5000, lt_of_lt_of_eq (by omega : (i 0).val / 5000 < 20) N_0.symm⟩, rfl⟩
  refine ⟨t, flush0_5 t, ?_⟩
  rw [mem_outBlock]
  obtain ⟨-, -, -, -, -, -, -, -, -, -, e10, e11⟩ := block_positions t
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-! ## The output array after the twenty write-backs -/

/-- After the last point the output array is, entry by entry, the rectified layer of the five arrays the points read. -/
theorem arrAt_eq (c : Dev nD) :
    (dat0 (F := Ideal) V c).arrAt 5 cfg0.N
      = Cert.Sage.denseRelu (V c main_v24) (V c main_arg0) (V c main_arg2) (V c main_arg3) (row (V c main_v25) (0 : Fin 1)) :=
  (dat0 V c).arrAt_eq_of_cover 5 _ (fun t _ => written_block V c t) rows_covered

end Cert.KernelIdeal.Region0

end
-- ==== Proof.Region1.lean ====
/-
  The second layer's block program read as one function of whole arrays, on the extended reals.

  The output array has 100000 rows of 64 entries and is produced in 20 steps. Step t (t = 0, …, 19) writes rows
  5000·t, …, 5000·t + 4999 and no others. The entry it writes at row 5000·t + r, column n is
      ((∑ k, A (5000·t + r) k · U k n) + ∑ k, X (5000·t + r) k · W k n) + b 0 n,
  where A and X are the two 100000 × 128 input arrays, U and W the two 128 × 64 weight matrices and b the 1 × 64 bias
  row. Of A and X the entry depends on row 5000·t + r alone: the step's blocks of A and of X sit at the same rows as
  its output block, so row r of a block is row 5000·t + r of its array. U, W and b are read whole at every step.
  Moving the bias inside, (p + q) + c = (p + c) + q, the entry is `layerSum` of those two rows, which is the entry
  (5000·t + r, n) of `Cert.Sage.dense A X U W (b 0)`.

  A row index i < 100000 lies in the block of step i / 5000, which is below 20, because
  5000·(i / 5000) ≤ i < 5000·(i / 5000) + 5000; a column index is below 64, the width of every block. So the 20 blocks
  cover the array, each step writes the values of the one function `dense` on its block, and after the last step
  the array is that function.
-/
import proofs.«147912_j39702677684849_1_alg».proof.Proof.Gen.KernelIdeal.Frame
import proofs.«147912_j39702677684849_1_alg».proof.Proof.LibMeanConv
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx Cert.DenseRows Cert.LibLayerSum

/-- The pair of zero offsets is the constant-zero offset. -/
theorem hz : (![0, 0] : Fin 2 → Nat) = fun _ => 0 := funext fun a => by fin_cases a <;> rfl

/-! ## One entry of the block a step computes -/

/-- Entry (r, n) of the block computed from blocks `x0`, `x1` of rows, matrices `x2`, `x3` and a bias row `x4`:
    the narrowing of the operands and the casts to their own shape change no value, and
    (x0 · x2 + x1 · x3) + b regroups to (x0 · x2 + b) + x1 · x3, so the entry is `layerSum` of row r of `x0` and row
    r of `x1`. -/
theorem pay_apply (x0 x1 : Vec Ideal S5000x128 .f32) (x2 x3 : Vec Ideal S128x64 .f32) (x4 : Vec Ideal S1x64 .f32)
    (r : Fin 5000) (n : Fin 64) :
    Gen.k1_pay1 (F := Ideal) x0 x1 x2 x3 x4 (ix2 r n)
      = layerSum (row x0 r) (row x1 r) (mat x2) (mat x3) (row x4 (0 : Fin 1)) n := by
  unfold Gen.k1_pay1
  refine (congrFun (Cert.Sage.row_block_bias_last dot_S5000x128_S128x64_S5000x64_1_0_0_1_n_n rfl none none
    (truncf .bf16 (shapeCast S5000x128 x0 Facts₀.shapeCasts_S5000x128_S5000x128) Facts₀.bitsLt_bf16_f32)
    (truncf .bf16 x2 Facts₀.bitsLt_bf16_f32)
    (truncf .bf16 (shapeCast S5000x128 x1 Facts₀.shapeCasts_S5000x128_S5000x128) Facts₀.bitsLt_bf16_f32)
    (truncf .bf16 x3 Facts₀.bitsLt_bf16_f32)
    (shapeCast S1x64 x4 Facts₀.shapeCasts_S1x64_S1x64) Facts₀.broadcasts_S1x64_S5000x64 r) n).trans ?_
  rw [row_truncf, row_truncf, row_shapeCast_self, row_shapeCast_self, row_shapeCast_self]
  rfl

/-! ## Where each step's blocks sit -/

/-- At step t the two row blocks and the output block have block index (t, 0); the two matrices and the bias row have
    block index (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row r of block t is a row of the array: 5000·t + r < 100000 because t < 20 and r < 5000. -/
theorem row_bound (t : Fin cfg1.N) (r : Fin 5000) : 5000 * t.val + r.val < 100000 := by
  have hN : grid1.N = 20 := Gen.N_1
  have ht : t.val < grid1.N := t.isLt
  have hr := r.isLt
  omega

section Blocks

variable (V : (c : Dev nD) → (b : Ref sig .tc) → Buf (Elt Ideal) ((c : Thread nD τ).loc b))

/-- Row r of step t's block of the first row array is row 5000·t + r of that array. -/
theorem blk0_row (c : Dev nD) (t : Fin cfg1.N) (r : Fin 5000) :
    row (iblk1 (F := Ideal) V c 0 t) r = row (V c main_v38) ⟨5000 * t.val + r.val, row_bound t r⟩ := by
  obtain ⟨e00, e01, -⟩ := idx_facts t
  funext k
  show V c main_v38 (((cfg1.win 0).blk t).view.emb (ix2 r k)) = V c main_v38 (ix2 ⟨5000 * t.val + r.val, row_bound t r⟩ k)
  refine congrArg (V c main_v38) (funext fun a => Fin.ext ?_)
  match a with
  | ⟨0, _⟩ => show win1_0.index t (0 : Fin 2) * 5000 + 1 * r.val = 5000 * t.val + r.val; omega
  | ⟨1, _⟩ => show win1_0.index t (1 : Fin 2) * 128 + 1 * k.val = k.val; omega

/-- Row r of step t's block of the second row array is row 5000·t + r of that array. -/
theorem blk1_row (c : Dev nD) (t : Fin cfg1.N) (r : Fin 5000) :
    row (iblk1 (F := Ideal) V c 1 t) r = row (V c main_v26) ⟨5000 * t.val + r.val, row_bound t r⟩ := by
  obtain ⟨-, -, e10, e11, -⟩ := idx_facts t
  funext k
  show V c main_v26 (((cfg1.win 1).blk t).view.emb (ix2 r k)) = V c main_v26 (ix2 ⟨5000 * t.val + r.val, row_bound t r⟩ k)
  refine congrArg (V c main_v26) (funext fun a => Fin.ext ?_)
  match a with
  | ⟨0, _⟩ => show win1_1.index t (0 : Fin 2) * 5000 + 1 * r.val = 5000 * t.val + r.val; omega
  | ⟨1, _⟩ => show win1_1.index t (1 : Fin 2) * 128 + 1 * k.val = k.val; omega

/-- Every step's block of the first weight matrix is the whole matrix. -/
theorem blk2_mat (c : Dev nD) (t : Fin cfg1.N) :
    mat (iblk1 (F := Ideal) V c 2 t) = mat (V c main_arg5) := by
  obtain ⟨-, -, -, -, e20, e21, -⟩ := idx_facts t
  funext k n
  show V c main_arg5 (((cfg1.win 2).blk t).view.emb (ix2 k n)) = V c main_arg5 (ix2 k n)
  refine congrArg (V c main_arg5) (funext fun a => Fin.ext ?_)
  match a with
  | ⟨0, _⟩ => show win1_2.index t (0 : Fin 2) * 128 + 1 * k.val = k.val; omega
  | ⟨1, _⟩ => show win1_2.index t (1 : Fin 2) * 64 + 1 * n.val = n.val; omega

/-- Every step's block of the second weight matrix is the whole matrix. -/
theorem blk3_mat (c : Dev nD) (t : Fin cfg1.N) :
    mat (iblk1 (F := Ideal) V c 3 t) = mat (V c main_arg6) := by
  obtain ⟨-, -, -, -, -, -, e30, e31, -⟩ := idx_facts t
  funext k n
  show V c main_arg6 (((cfg1.win 3).blk t).view.emb (ix2 k n)) = V c main_arg6 (ix2 k n)
  refine congrArg (V c main_arg6) (funext fun a => Fin.ext ?_)
  match a with
  | ⟨0, _⟩ => show win1_3.index t (0 : Fin 2) * 128 + 1 * k.val = k.val; omega
  | ⟨1, _⟩ => show win1_3.index t (1 : Fin 2) * 64 + 1 * n.val = n.val; omega

/-- Every step's block of the bias is its one row. -/
theorem blk4_row (c : Dev nD) (t : Fin cfg1.N) :
    row (iblk1 (F := Ideal) V c 4 t) (0 : Fin 1) = row (V c main_v39) (0 : Fin 1) := by
  obtain ⟨-, -, -, -, -, -, -, -, e40, e41, -⟩ := idx_facts t
  funext n
  show V c main_v39 (((cfg1.win 4).blk t).view.emb (ix2 (0 : Fin 1) n)) = V c main_v39 (ix2 (0 : Fin 1) n)
  refine congrArg (V c main_v39) (funext fun a => Fin.ext ?_)
  match a with
  | ⟨0, _⟩ => show win1_4.index t (0 : Fin 2) * 1 + 1 * 0 = 0; omega
  | ⟨1, _⟩ => show win1_4.index t (1 : Fin 2) * 64 + 1 * n.val = n.val; omega

/-- Entry (r, n) of step t's output block is entry (5000·t + r, n) of the output array. -/
theorem blk5_emb (t : Fin cfg1.N) (r : Fin 5000) (n : Fin 64) :
    ((cfg1.win 5).blk t).view.emb (ix2 r n) = (ix2 ⟨5000 * t.val + r.val, row_bound t r⟩ n : S100000x64.Idx) := by
  obtain ⟨-, -, -, -, -, -, -, -, -, -, e50, e51⟩ := idx_facts t
  refine funext fun a => Fin.ext ?_
  match a with
  | ⟨0, _⟩ => show win1_5.index t (0 : Fin 2) * 5000 + 1 * r.val = 5000 * t.val + r.val; omega
  | ⟨1, _⟩ => show win1_5.index t (1 : Fin 2) * 64 + 1 * n.val = n.val; omega

/-! ## What a step writes -/

/-- Step t writes, on its block of rows, the values of `dense` of the five arrays the steps read. -/
theorem flushed_eq (c : Dev nD) (t : Fin cfg1.N) :
    (dat1 (F := Ideal) V c).flushed 5 t
      = ((cfg1.win 5).blk t).view.read (Elt Ideal)
          (Cert.Sage.dense (V c main_v38) (V c main_v26) (V c main_arg5) (V c main_arg6) (row (V c main_v39) (0 : Fin 1))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  funext j
  obtain ⟨r, n, rfl⟩ : ∃ (r : Fin 5000) (n : Fin 64), j = ix2 r n := ⟨j 0, j 1, eq_ix2 j⟩
  show Gen.k1_pay1 (iblk1 V c 0 t) (iblk1 V c 1 t) (iblk1 V c 2 t) (iblk1 V c 3 t) (iblk1 V c 4 t) (ix2 r n)
      = Cert.Sage.dense (V c main_v38) (V c main_v26) (V c main_arg5) (V c main_arg6) (row (V c main_v39) (0 : Fin 1))
          (((cfg1.win 5).blk t).view.emb (ix2 r n))
  rw [blk5_emb t r n, Cert.Sage.dense_ix2]
  refine (pay_apply (iblk1 V c 0 t) (iblk1 V c 1 t) (iblk1 V c 2 t) (iblk1 V c 3 t) (iblk1 V c 4 t) r n).trans ?_
  rw [blk0_row V c t r, blk1_row V c t r, blk2_mat V c t, blk3_mat V c t, blk4_row V c t]

end Blocks

/-! ## The blocks cover the array -/

/-- An index of the output array is in step t's block iff, on each axis, its coordinate lies in the block's range. -/
theorem mem_blk (t : Fin cfg1.N) (i : S100000x64.Idx) :
    i ∈ ((cfg1.win 5).blk t).view.set
      ↔ ∀ a : Fin 2, win1_5.index t a * S5000x64.size a ≤ (i a).val ∧ (i a).val < win1_5.index t a * S5000x64.size a + S5000x64.size a := by
  show i ∈ ((View.whole main_v40).slice (win1_5.rect t)).set ↔ _
  rw [View.set_slice_whole, Rect.mem_set_unit]
  exact Iff.rfl

/-- Every index (i₀, i₁) of the output array is in the block of step i₀ / 5000: that quotient is below 20, and
    5000·(i₀ / 5000) ≤ i₀ < 5000·(i₀ / 5000) + 5000, 0 ≤ i₁ < 64. -/
theorem cover (i : S100000x64.Idx) :
    ∃ t : Fin cfg1.N, (cfg1.win 5).flush t = true ∧ i ∈ ((cfg1.win 5).blk t).view.set := by
  have hN : grid1.N = 20 := Gen.N_1
  have hi0 : (i 0).val < 100000 := (i 0).isLt
  have hi1 : (i 1).val < 64 := (i 1).isLt
  have hq : (i 0).val / 5000 < grid1.N := by omega
  refine ⟨⟨(i 0).val / 5000, hq⟩, flush1_5 _, ?_⟩
  rw [mem_blk]
  obtain ⟨-, -, -, -, -, -, -, -, -, -, e50, e51⟩ := idx_facts ⟨(i 0).val / 5000, hq⟩
  have e50' : win1_5.index ⟨(i 0).val / 5000, hq⟩ (0 : Fin 2) = (i 0).val / 5000 := e50
  intro a
  match a with
  | ⟨0, _⟩ =>
    show win1_5.index ⟨(i 0).val / 5000, hq⟩ (0 : Fin 2) * 5000 ≤ (i 0).val
      ∧ (i 0).val < win1_5.index ⟨(i 0).val / 5000, hq⟩ (0 : Fin 2) * 5000 + 5000
    omega
  | ⟨1, _⟩ =>
    show win1_5.index ⟨(i 0).val / 5000, hq⟩ (1 : Fin 2) * 64 ≤ (i 1).val
      ∧ (i 1).val < win1_5.index ⟨(i 0).val / 5000, hq⟩ (1 : Fin 2) * 64 + 64
    omega

/-! ## The output array after the last step -/

/-- After the 20 steps the output array is, index by index, `dense` of the two row arrays, the two weight matrices
    and the bias row as they stood when the steps began. -/
theorem arrAt_eq (V : (c : Dev nD) → (b : Ref sig .tc) → Buf (Elt Ideal) ((c : Thread nD τ).loc b)) (c : Dev nD) :
    (Gen.dat1 (F := Ideal) V c).arrAt 5 cfg1.N
      = Cert.Sage.dense (V c main_v38) (V c main_v26) (V c main_arg5) (V c main_arg6) (Cert.DenseRows.row (V c main_v39) (0 : Fin 1)) :=
  (dat1 (F := Ideal) V c).arrAt_eq_of_cover 5 _ (fun t _ => flushed_eq V c t) cover

end Cert.KernelIdeal.Region1

end
-- ==== Proof.KValue.lean ====
/-
  The idealized two-layer program's result as one function of its argument arrays.

  The result buffer holds what the second layer's twenty write-backs leave (the named run), which is the dense layer
  of the arrays the second layer found at its entry (Region1), which the host operations between the layers made from
  the first layer's output and the edge list (HostK); the first layer's output is likewise the rectified dense layer of
  what the host operations before it made from the node features and the edge list (Region0, HostK). The host spells
  the mean of the in-neighbours' rows as the row sums times the reciprocal of the clamped in-degree; that is the
  quotient by the clamped in-degree, since a number clamped below at one is never zero. Put together, the result is
  `Cert.Sage.net` of the neighbour-sum operator, the clamped in-degree and the seven float arguments.
-/
import proofs.«147912_j39702677684849_1_alg».proof.Proof.KRun
import proofs.«147912_j39702677684849_1_alg».proof.Proof.HostK
import proofs.«147912_j39702677684849_1_alg».proof.Proof.Region0
import proofs.«147912_j39702677684849_1_alg».proof.Proof.Region1
import proofs.«147912_j39702677684849_1_alg».proof.Proof.LibMeanConv

set_option maxRecDepth 16384

noncomputable section

namespace Cert.KernelIdeal.KValue

open Cert.KernelIdeal Cert.KernelIdeal.Gen Cert.KernelIdeal.HostValue
open Idealize.ShloMosaic Idealize.ShloMosaic.TcCoe Idealize.SL.Sem

/-- The sums times the spread reciprocal column are the sums divided by the spread clamped in-degree. -/
theorem meanMul_eq (e : (⟨S2x1600000, .i32⟩ : BufTy).Contents (Elt Ideal)) (f : (⟨S100000x128, .f32⟩ : BufTy).Contents (Elt Ideal)) :
    meanMul e f = Cert.Sage.meanDiv (nb e) (clampedCount e) bcast_S100000_S100000x1_0 bcast_S100000x1_S100000x128_0_1 f := by
  unfold meanMul invCol Cert.Sage.meanDiv
  exact Cert.Sage.mean_mul_eq_div (nb e f) _ (clampedCount e) bcast_S100000_S100000x1_0 bcast_S100000x1_S100000x128_0_1
    (fun i => Cert.Sage.ones_apply _ bcast_S_S100000 i)
    (fun i => Cert.Sage.clamped_ne_zero _ _ bcast_S_S100000 i)

variable (m : (ℓ : Loc nD τ sig) → Buf (Elt Ideal) ℓ) (ρ : Dev nD → PrngReg)

/-- The first layer's output array: the rectified dense layer of the mean of the in-neighbours' feature rows and
    of the features. -/
theorem layer1 (c : Dev nD) :
    V2 m ρ c main_v26
      = Cert.Sage.denseRelu
          (Cert.Sage.meanDiv (nb (m ((c : Thread nD τ).loc main_arg1))) (clampedCount (m ((c : Thread nD τ).loc main_arg1)))
            bcast_S100000_S100000x1_0 bcast_S100000x1_S100000x128_0_1 (m ((c : Thread nD τ).loc main_arg0)))
          (m ((c : Thread nD τ).loc main_arg0)) (m ((c : Thread nD τ).loc main_arg2)) (m ((c : Thread nD τ).loc main_arg3))
          (Cert.DenseRows.vec (m ((c : Thread nD τ).loc main_arg4))) := by
  rw [V2_v26 m ρ c, Cert.KernelIdeal.Region0.arrAt_eq (V1 m ρ) c, V1_v24 m ρ c, V1_arg m ρ c main_arg0 (by simp),
    V1_arg m ρ c main_arg2 (by simp), V1_arg m ρ c main_arg3 (by simp), V1_v25 m ρ c, Cert.LibLayerSum.row_cast_vec, meanMul_eq]

/-- The result buffer at the program's return: the two-layer function of the arguments. -/
theorem result (c : Dev nD) :
    W4 m ρ c (Proc.devRef .tc main_v40)
      = Cert.Sage.net (nb (m ((c : Thread nD τ).loc main_arg1))) (clampedCount (m ((c : Thread nD τ).loc main_arg1)))
          bcast_S100000_S100000x1_0 bcast_S100000x1_S100000x128_0_1
          (m ((c : Thread nD τ).loc main_arg0)) (m ((c : Thread nD τ).loc main_arg2)) (m ((c : Thread nD τ).loc main_arg3))
          (Cert.DenseRows.vec (m ((c : Thread nD τ).loc main_arg4)))
          (m ((c : Thread nD τ).loc main_arg5)) (m ((c : Thread nD τ).loc main_arg6))
          (Cert.DenseRows.vec (m ((c : Thread nD τ).loc main_arg7))) := by
  rw [Cert.KernelIdeal.Named.result_eq_arrAt m ρ c, Cert.KernelIdeal.Region1.arrAt_eq (V3 m ρ) c, V3_v38 m ρ c, V3_v26 m ρ c,
    V3_arg m ρ c main_arg5 (by simp), V3_arg m ρ c main_arg6 (by simp), V3_v39 m ρ c, Cert.LibLayerSum.row_cast_vec, meanMul_eq,
    layer1 m ρ c]
  rfl

end Cert.KernelIdeal.KValue

end
-- ==== Proof.RefValue.lean ====
/-
  The reference program as the two-layer mean-aggregating graph convolution of its argument arrays.

  The edge list is a [2, E] array of node numbers: its first row holds each edge's source, its second row each edge's
  target. Two things depend on the edge list alone.
    * `nb e f` is, for a feature array `f` of one row per node, the array whose row `v` is the sum of the rows of `f` at
      the sources of the edges that point at `v` (a source written as a negative number counts from the end): the rows
      of `f` are gathered edge by edge and added, at each edge's target, into an array of zeros.
    * `clampedCount e` is, per node, the number of edges that point at it (a one per edge, added into zeros at the edge's
      target), replaced by one where it is smaller than one.
  One layer divides each row of `nb e f` by the node's clamped count, which gives the mean of the neighbours' rows, and
  returns `(mean · U + b) + f · W`. The program applies a rectified layer to the node features and a plain layer to the
  result; it recomputes the sources, the targets and the counts for the second layer, and they are the same arrays.
  `res_eq` says the array the program returns is `Cert.Sage.net` of `nb e`, `clampedCount e` and the remaining arguments.
  No finiteness is asked of anything: every step is an unfolding of a definition, the reading of the dense part of a
  layer row by row (`host_whole`), or the reading of a constant spread over an array at one index.
-/
import proofs.«147912_j39702677684849_1_alg».proof.Proof.Gen.ReferenceIdeal.Read
import proofs.«147912_j39702677684849_1_alg».proof.Proof.LibMeanConv

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The two functions of the edge list -/

/-- Per node, the sum of the feature rows of its in-neighbours. -/
def nb (e : (⟨S2x1600000, .i32⟩ : BufTy).Contents (Elt Ideal)) (f : (⟨S100000x128, .f32⟩ : BufTy).Contents (Elt Ideal)) :
    (⟨S100000x128, .f32⟩ : BufTy).Contents (Elt Ideal) :=
  Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x128_S1600000x1_S1600000x128_1_0_n_n_0_1_1128 f (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))

/-- Per node, its in-degree clamped below at one. -/
def clampedCount (e : (⟨S2x1600000, .i32⟩ : BufTy).Contents (Elt Ideal)) : (⟨S100000, .f32⟩ : BufTy).Contents (Elt Ideal) :=
  maximumf (F := Ideal) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x3F800000#32))

/-! ## The neighbour sums and the clamped counts of the two layers -/

/-- The first layer's neighbour sums are `nb` of the node features. -/
theorem sums1 (x0 : (⟨S100000x128, .f32⟩ : BufTy).Contents (Elt Ideal)) (x1 : (⟨S2x1600000, .i32⟩ : BufTy).Contents (Elt Ideal)) :
    Read.val_main_v13 (F := Ideal) x0 x1 = nb x1 x0 := by
  unfold Read.val_main_v13 Read.val_main_v11 Read.val_main_cst Read.val_main_v12 Read.val_main_v3 Read.val_main_v2
    Read.val_main_v10 Read.val_main_v9 Read.val_main_v8 Read.val_main_v5 Read.val_main_v7 Read.val_main_v4 Read.val_main_v6
    Read.val_main_c Read.val_main_c_0 Read.val_main_v1 Read.val_main_v0 nb
  rfl

/-- The first layer's clamped counts. -/
theorem count1 (x1 : (⟨S2x1600000, .i32⟩ : BufTy).Contents (Elt Ideal)) :
    Read.val_main_v19 (F := Ideal) x1 = clampedCount x1 := by
  unfold Read.val_main_v19 Read.val_main_v17 Read.val_main_v15 Read.val_main_cst_2 Read.val_main_v16 Read.val_main_v3
    Read.val_main_v2 Read.val_main_v14 Read.val_main_cst_1 Read.val_main_v18 Read.val_main_cst_3 clampedCount
  rfl

/-- The second layer's neighbour sums are `nb` of the first layer's result: the sources and targets it recomputes are
    the same arrays. -/
theorem sums2 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    Read.val_main_v43 (F := Ideal) x0 x1 x2 x3 x4 = nb x1 (Read.val_main_v29 (F := Ideal) x0 x1 x2 x3 x4) := by
  unfold Read.val_main_v43 Read.val_main_v41 Read.val_main_cst_6 Read.val_main_v42 Read.val_main_v33 Read.val_main_v32
    Read.val_main_v40 Read.val_main_v39 Read.val_main_v38 Read.val_main_v35 Read.val_main_v37 Read.val_main_v34 Read.val_main_v36
    Read.val_main_c_4 Read.val_main_c_5 Read.val_main_v31 Read.val_main_v30 nb
  rfl

/-- The second layer's clamped counts are the first layer's. -/
theorem count2 (x1 : (⟨S2x1600000, .i32⟩ : BufTy).Contents (Elt Ideal)) :
    Read.val_main_v49 (F := Ideal) x1 = clampedCount x1 := by
  unfold Read.val_main_v49 Read.val_main_v47 Read.val_main_v45 Read.val_main_cst_8 Read.val_main_v46 Read.val_main_v33
    Read.val_main_v32 Read.val_main_v44 Read.val_main_cst_7 Read.val_main_v48 Read.val_main_cst_9 clampedCount
  rfl

/-! ## The means of the neighbours' rows -/

/-- The first layer's mean: the neighbour sums of the features over the clamped count spread along each row. -/
theorem mean1 (x0 : (⟨S100000x128, .f32⟩ : BufTy).Contents (Elt Ideal)) (x1 : (⟨S2x1600000, .i32⟩ : BufTy).Contents (Elt Ideal)) :
    Read.val_main_v22 (F := Ideal) x0 x1
      = Cert.Sage.meanDiv (nb x1) (clampedCount x1) bcast_S100000_S100000x1_0 bcast_S100000x1_S100000x128_0_1 x0 := by
  unfold Read.val_main_v22 Read.val_main_v21 Read.val_main_v20 Cert.Sage.meanDiv
  rw [sums1, count1]

/-- The second layer's mean, of the first layer's result. -/
theorem mean2 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    Read.val_main_v52 (F := Ideal) x0 x1 x2 x3 x4
      = Cert.Sage.meanDiv (nb x1) (clampedCount x1) bcast_S100000_S100000x1_0 bcast_S100000x1_S100000x128_0_1
          (Read.val_main_v29 (F := Ideal) x0 x1 x2 x3 x4) := by
  unfold Read.val_main_v52 Read.val_main_v51 Read.val_main_v50 Cert.Sage.meanDiv
  rw [sums2, count2]

/-! ## The dimension numbers of the four products are the plain ones -/

theorem dims1 : dot_S100000x128_S128x128_S100000x128_1_0_0_1_n_n = DotDims.plain 100000 128 128 := rfl

theorem dims2 : dot_S100000x128_S128x64_S100000x64_1_0_0_1_n_n = DotDims.plain 100000 128 64 := rfl

/-! ## The first layer -/

/-- Before the rectifier the first layer is `(mean · U₁ + b₁) + x · W₁`, row by row. -/
theorem layer1 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    Read.val_main_v28 (F := Ideal) x0 x1 x2 x3 x4
      = Cert.LibLayerSum.wholeOf (Read.val_main_v22 (F := Ideal) x0 x1) x0 x2 x3 (Cert.DenseRows.vec x4) := by
  unfold Read.val_main_v28 Read.val_main_v26 Read.val_main_v23 Read.val_main_v25 Read.val_main_v24 Read.val_main_v27
  exact Cert.LibLayerSum.host_whole dot_S100000x128_S128x128_S100000x128_1_0_0_1_n_n dims1 none none
    (Read.val_main_v22 (F := Ideal) x0 x1) x2 x0 x3 x4 bcast_S128_S1x128_1 bcast_S1x128_S100000x128_0_1

/-- The entrywise maximum of a layer's array with a zero constant spread over every entry is the rectified layer. -/
theorem relu_whole {R K N : ℕ} (A X : (⟨2, ![R, K]⟩ : Shape).Idx → EReal) (U W : (⟨2, ![K, N]⟩ : Shape).Idx → EReal)
    (b : Fin N → EReal) (dims : Fin (⟨0, ![]⟩ : Shape).rank → Fin (⟨2, ![R, N]⟩ : Shape).rank)
    (h : (⟨0, ![]⟩ : Shape).BroadcastsInDim ⟨2, ![R, N]⟩ dims) :
    maximumf (F := Ideal) (φ := .f32) (Cert.LibLayerSum.wholeOf A X U W b)
        (broadcastInDim ⟨2, ![R, N]⟩ dims h (constant (F := Ideal) ⟨0, ![]⟩ .f32 0x00000000#32))
      = Cert.Sage.denseRelu A X U W b := by
  funext i
  show max (Cert.LibLayerSum.wholeOf A X U W b i)
        (broadcastInDim ⟨2, ![R, N]⟩ dims h (constant (F := Ideal) ⟨0, ![]⟩ .f32 0x00000000#32) i)
      = max (Cert.LibLayerSum.wholeOf A X U W b i) (Ideal.ofBits .f32 0x00000000#32)
  rw [Cert.DenseRows.splat_apply]
  rfl

/-- The first layer's result: every entry of that array replaced by its maximum with zero. -/
theorem hidden (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    Read.val_main_v29 (F := Ideal) x0 x1 x2 x3 x4
      = Cert.Sage.denseRelu
          (Cert.Sage.meanDiv (nb x1) (clampedCount x1) bcast_S100000_S100000x1_0 bcast_S100000x1_S100000x128_0_1 x0)
          x0 x2 x3 (Cert.DenseRows.vec x4) := by
  unfold Read.val_main_v29 Read.val_main_call0_v0 Read.val_main_call0_cst
  rw [layer1, mean1]
  exact relu_whole _ x0 x2 x3 (Cert.DenseRows.vec x4) ![] bcast_S_S100000x128
/-! ## The program's result -/

/-- The result as a function of the eight argument arrays. -/
theorem val_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x64, .f32⟩ : BufTy).Contents (Elt Ideal)) (x7 : (⟨S64, .f32⟩ : BufTy).Contents (Elt Ideal)) :
    Read.val_main_v58 (F := Ideal) x0 x1 x2 x3 x4 x5 x6 x7
      = Cert.Sage.net (R := 100000) (K := 128) (N := 64) (nb x1) (clampedCount x1)
          bcast_S100000_S100000x1_0 bcast_S100000x1_S100000x128_0_1
          x0 x2 x3 (Cert.DenseRows.vec x4) x5 x6 (Cert.DenseRows.vec x7) := by
  unfold Read.val_main_v58 Read.val_main_v56 Read.val_main_v53 Read.val_main_v55 Read.val_main_v54 Read.val_main_v57
  refine (Cert.LibLayerSum.host_whole dot_S100000x128_S128x64_S100000x64_1_0_0_1_n_n dims2 none none
    (Read.val_main_v52 (F := Ideal) x0 x1 x2 x3 x4) x5 (Read.val_main_v29 (F := Ideal) x0 x1 x2 x3 x4) x6 x7
    bcast_S64_S1x64_1 bcast_S1x64_S100000x64_0_1).trans ?_
  rw [mean2, hidden]
  unfold Cert.Sage.net Cert.Sage.dense
  rfl

/-- The array the reference program returns is the two-layer function of the neighbour sums, the clamped counts and
    the remaining arguments. -/
theorem res_eq (m : (ℓ : Loc nD τ sig) → Buf (Elt Ideal) ℓ) (c : Dev nD) :
    Cert.ReferenceIdeal.Value.res_main_v58 (F := Ideal) m c
      = Cert.Sage.net (R := 100000) (K := 128) (N := 64)
          (nb (m ((c.tc : Thread nD τ).loc main_arg1))) (clampedCount (m ((c.tc : Thread nD τ).loc main_arg1)))
          bcast_S100000_S100000x1_0 bcast_S100000x1_S100000x128_0_1
          (m ((c.tc : Thread nD τ).loc main_arg0)) (m ((c.tc : Thread nD τ).loc main_arg2)) (m ((c.tc : Thread nD τ).loc main_arg3))
          (Cert.DenseRows.vec (m ((c.tc : Thread nD τ).loc main_arg4)))
          (m ((c.tc : Thread nD τ).loc main_arg5)) (m ((c.tc : Thread nD τ).loc main_arg6))
          (Cert.DenseRows.vec (m ((c.tc : Thread nD τ).loc main_arg7))) := by
  rw [Read.val_main_v58_eq]
  exact val_eq _ _ _ _ _ _ _ _

end Cert.ReferenceIdeal.RefValue

end
-- ==== Proof.lean ====
/-
  A two-layer mean-aggregating graph convolution: a tiled kernel program against a plain reference, equal on the
  extended reals.

  Both programs take node features x ([100000, 128]), an edge list ([2, 1600000]: sources, destinations) and two
  layers' weights and biases. Per layer, with h the layer's input: every node sums the rows of h at its
  in-neighbours, divides by its in-degree clamped below at one, and the layer's output row is
  (mean · W_l + b) + h_row · W_r, rectified after the first layer only.
  The two programs differ in three ways, none of which changes a value on the extended reals:
    * the kernel program multiplies the sums by the reciprocal of the clamped in-degree, the reference divides by
      it: equal because the clamped in-degree is never zero (no finiteness of the sums or of the degree is needed);
    * the kernel program computes each dense layer block of 5000 rows by block, with the operands rounded to a
      shorter float format on the way into the matrix products (the identity on the extended reals), the reference
      on all rows at once: a row of the layer depends on the same row of its two inputs alone;
    * the three summands of a layer are grouped (mean·W_l + h·W_r) + b in the kernel and (mean·W_l + b) + h·W_r in
      the reference: addition of extended reals is commutative and associative.
  The gather of the neighbours' rows and the two scatter-additions are the same operations in both programs and are
  never opened: each program's result is `Cert.Sage.net` (Proof/LibMeanConv.lean) of the neighbour-sum operator and the
  clamped in-degree as that program spells them (Proof/KValue.lean for the kernel program, Proof/RefValue.lean for
  the reference), and the two spellings are the same terms of the edge list.
  The precondition (finite inputs) is not used: every step above holds for all extended reals.
-/
import proofs.«147912_j39702677684849_1_alg».proof.Defs
import proofs.«147912_j39702677684849_1_alg».proof.Proof.Gen.Kernel
import proofs.«147912_j39702677684849_1_alg».proof.Proof.Gen.Kernel.Skeleton
import proofs.«147912_j39702677684849_1_alg».proof.Proof.Gen.Kernel.Launch
import proofs.«147912_j39702677684849_1_alg».proof.Proof.Gen.Kernel.Points
import proofs.«147912_j39702677684849_1_alg».proof.Proof.Gen.Kernel.Frame
import proofs.«147912_j39702677684849_1_alg».proof.Proof.Gen.KernelIdeal
import proofs.«147912_j39702677684849_1_alg».proof.Proof.Gen.KernelIdeal.Skeleton
import proofs.«147912_j39702677684849_1_alg».proof.Proof.Gen.KernelIdeal.Launch
import proofs.«147912_j39702677684849_1_alg».proof.Proof.Gen.KernelIdeal.Points
import proofs.«147912_j39702677684849_1_alg».proof.Proof.Gen.KernelIdeal.Frame
import proofs.«147912_j39702677684849_1_alg».proof.Proof.Gen.ReferenceIdeal
import proofs.«147912_j39702677684849_1_alg».proof.Proof.Gen.ReferenceIdeal.Run
import proofs.«147912_j39702677684849_1_alg».proof.Proof.Gen.ReferenceIdeal.Read
import proofs.«147912_j39702677684849_1_alg».proof.Proof.Gen.Pre_finite_inputs
import proofs.«147912_j39702677684849_1_alg».proof.Proof.LibMeanConv
import proofs.«147912_j39702677684849_1_alg».proof.Proof.KRun
import proofs.«147912_j39702677684849_1_alg».proof.Proof.KValue
import proofs.«147912_j39702677684849_1_alg».proof.Proof.RefValue
import Idealize.ShloMosaic.Adequacy
import Idealize.ShloMosaic.Init

noncomputable section

namespace Cert.Proof

open Idealize.ShloMosaic Idealize.ShloMosaic.TcCoe Idealize.SL.Sem

/-! ## The frames -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-! ## The two programs spell the edge list's two functions with the same operations -/

/-- The neighbour-sum operator: gather the source rows, add each into its destination's row of a zero array. -/
theorem nb_agree : Cert.ReferenceIdeal.RefValue.nb = Cert.KernelIdeal.HostValue.nb := rfl

/-- The in-degree clamped below at one. -/
theorem clampedCount_agree : Cert.ReferenceIdeal.RefValue.clampedCount = Cert.KernelIdeal.HostValue.clampedCount := rfl

/-! ## Equal results -/

theorem algebraic : Cert.algebraic_KernelIdeal_ReferenceIdeal := by
  intro m ρ m' ρ' _ hagree
  refine ⟨fun c => Cert.Sage.net
      (Cert.KernelIdeal.HostValue.nb (m ((c.tc : Thread Cert.KernelIdeal.nD Cert.KernelIdeal.τ).loc Cert.KernelIdeal.main_arg1)))
      (Cert.KernelIdeal.HostValue.clampedCount (m ((c.tc : Thread Cert.KernelIdeal.nD Cert.KernelIdeal.τ).loc Cert.KernelIdeal.main_arg1)))
      Cert.KernelIdeal.Gen.bcast_S100000_S100000x1_0 Cert.KernelIdeal.Gen.bcast_S100000x1_S100000x128_0_1
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (Cert.DenseRows.vec (m ((c.tc : Thread Cert.KernelIdeal.nD Cert.KernelIdeal.τ).loc Cert.KernelIdeal.main_arg4)))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (Cert.DenseRows.vec (m ((c.tc : Thread Cert.KernelIdeal.nD Cert.KernelIdeal.τ).loc Cert.KernelIdeal.main_arg7))), ?_, ?_⟩
  · exact (θ_run Cert.KernelIdeal.defs _ _).mono
      (fun r h c => ⟨(h c).1.trans (Cert.KernelIdeal.KValue.result m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2, nb_agree, clampedCount_agree]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
